-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S16x1024 : Shape := ⟨2, ![16, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S16x1024 : S_.BroadcastsInDim S16x1024 (![] : Fin 0 → Fin S16x1024.rank)
  reducesTo_S16x1024_S_d0_1 : S16x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024x1024 .f32) (main_arg5 : FVec F S16x1024 .f32) (main_arg6 : FVec F S1024x1024 .f32) (main_arg7 : FVec F S1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S16x1024 .f32 := Host.absf main_arg5
  let main_cst_8 : FVec F S_ .f32 := constant S_ .f32 0x7F800000#32
  let main_v25 : FVec F S16x1024 .f32 := broadcastInDim S16x1024 ![] bcast_S_S16x1024 main_cst_8
  let main_v26 : IVec S16x1024 1 := cmpf .olt main_v24 main_v25
  let main_c_9 : IVec S_ 1 := constantI S_ 1 1#1
  let main_v27 : IVec S_ 1 := (fun x v => Host.reduce IntOp.andi x v reducesTo_S16x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_v33

def fn {F : FTy → Type} [FloatOps F] (main_arg0 : FVec F S4x4096x1024 .f32) (main_arg1 : FVec F S1024x1024 .f32) (main_arg2 : FVec F S1024x1024 .f32) (main_arg3 : FVec F S1024x1024 .f32) (main_arg4 : FVec F S1024x1024 .f32) (main_arg5 : FVec F S16x1024 .f32) (main_arg6 : FVec F S1024x1024 .f32) (main_arg7 : FVec F S1024 .f32) (main_arg8 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x4096x1024 : Shape := ⟨3, ![4, 4096, 1024]⟩
abbrev S1024x1024 : Shape := ⟨2, ![1024, 1024]⟩
abbrev S16x1024 : Shape := ⟨2, ![16, 1024]⟩
abbrev S1024 : Shape := ⟨1, ![1024]⟩
abbrev S16384x1024 : Shape := ⟨2, ![16384, 1024]⟩
abbrev S2048x1024 : Shape := ⟨2, ![2048, 1024]⟩
abbrev S1x1024 : Shape := ⟨2, ![1, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 17
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S16x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S16384x1024, .f32⟩
  | .hbm, ⟨10, _⟩ => ⟨S2048x1024, .f32⟩
  | .hbm, ⟨11, _⟩ => ⟨S2048x1024, .bf16⟩
  | .hbm, ⟨12, _⟩ => ⟨S1024x1024, .bf16⟩
  | .hbm, ⟨13, _⟩ => ⟨S1x1024, .f32⟩
  | .hbm, ⟨14, _⟩ => ⟨S1x1024, .f32⟩
  | .hbm, ⟨15, _⟩ => ⟨S16384x1024, .f32⟩
  | .hbm, ⟨16, _⟩ => ⟨S4x4096x1024, .f32⟩
  | .local _ .vmem, ⟨0, _⟩ => ⟨S512x1024, .f32⟩
  | .local _ .vmem, ⟨1, _⟩ => ⟨S512x1024, .f32⟩
  | .local _ .vmem, ⟨2, _⟩ => ⟨S2048x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x4096x1024_S16384x1024 : S4x4096x1024.ShapeCasts S16384x1024
  concatenates_S1024x1024_S1024x1024_S2048x1024_d0 : Shape.Concatenates [S1024x1024, S1024x1024] S2048x1024 0
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  slices_S512x2048_o0_0_S512x1024 : S512x2048.Slices ![0, 0] S512x1024
  slices_S512x2048_o0_1024_S512x1024 : S512x2048.Slices ![0, 1024] S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S512x1024_S512 : S512x1024.Reduces [1] S512
  shapeCasts_S512_S512x1 : S512.ShapeCasts S512x1
  broadcasts_S512x1_S512x1024 : S512x1.Broadcasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S16384x1024_S4x4096x1024 : S16384x1024.ShapeCasts S4x4096x1024
  dot_S512x1024_S2048x1024_S512x2048_1_1_0_0_n_n_wf : DotDims.WF S512x1024 S2048x1024 S512x2048 [1] [1] [0] [0] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S16384x1024.size a
  hwx0_5 : ∀ i : grid0.Coords, EltTy.bits .f32 = 32 ∨ (Rect.block (s := S16384x1024) S512x1024.size (cc0_transform_5 i) (hinb0_5 i)).WholeWords (EltTy.packing .f32)

variable [Facts₀]

def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S16x1024 : Shape := ⟨2, ![16, 1024]⟩
abbrev S1024 : Shape := ⟨1, ![1024]⟩
abbrev S4x4096x16 : Shape := ⟨3, ![4, 4096, 16]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 73
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S16x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S4x4096x1024, .f32⟩
  | .hbm, ⟨13, _⟩ => ⟨S4x4096x16, .f32⟩
  | .hbm, ⟨14, _⟩ => ⟨S4x4096x1024, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1024, .f32⟩
  | .hbm, ⟨23, _⟩ => ⟨S4x4096x1024, .f32⟩
  | .hbm, ⟨24, _⟩ => ⟨S4x4096x1024, .f32⟩
  | .hbm, ⟨25, _⟩ => ⟨S4x4096x1024, .f32⟩
  | .hbm, ⟨26, _⟩ => ⟨S_, .f32⟩
  | .hbm, ⟨27, _⟩ => ⟨S4x4096x1024, .f32⟩
  | .hbm, ⟨28, _⟩ => ⟨S4x4096x1024, .f32⟩
  | .hbm, ⟨29, _⟩ => ⟨S_, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S4x4096x16, .f32⟩
  | .hbm, ⟨34, _⟩ => ⟨S4x4096x16, .f32⟩
  | .hbm, ⟨35, _⟩ => ⟨S_, .f32⟩
  | .hbm, ⟨36, _⟩ => ⟨S4x4096x16, .f32⟩
  | .hbm, ⟨37, _⟩ => ⟨S4x4096x16, .f32⟩
  | .hbm, ⟨38, _⟩ => ⟨S_, .f32⟩
  | .hbm, ⟨39, _⟩ => ⟨S4x4096x16, .f32⟩
  | .hbm, ⟨40, _⟩ => ⟨S4x4096x16, .f32⟩
  | .hbm, ⟨41, _⟩ => ⟨S4x4096x1024, .f32⟩
  | .hbm, ⟨42, _⟩ => ⟨S4x4096x1024, .f32⟩
  | .hbm, ⟨43, _⟩ => ⟨S4x4096x1024, .f32⟩
  | .hbm, ⟨44, _⟩ => ⟨S_, .f32⟩
  | .hbm, ⟨45, _⟩ => ⟨S4x4096, .f32⟩
  | .hbm, ⟨46, _⟩ => ⟨S4x4096x1, .f32⟩
  | .hbm, ⟨47, _⟩ => ⟨S_, .f32⟩
  | .hbm, ⟨48, _⟩ => ⟨S4x4096x1, .f32⟩
  | .hbm, ⟨49, _⟩ => ⟨S4x4096x1, .f32⟩
  | .hbm, ⟨50, _⟩ => ⟨S4x4096x1024, .f32⟩
  | .hbm, ⟨51, _⟩ => ⟨S4x4096x1024, .f32⟩
  | .hbm, ⟨52, _⟩ => ⟨S4x4096x1024, .f32⟩
  | .hbm, ⟨53, _⟩ => ⟨S_, .f32⟩
  | .hbm, ⟨54, _⟩ => ⟨S4x4096, .f32⟩
  | .hbm, ⟨55, _⟩ => ⟨S4x4096x1, .f32⟩
  | .hbm, ⟨56, _⟩ => ⟨S_, .f32⟩
  | .hbm, ⟨57, _⟩ => ⟨S4x4096x1, .f32⟩
  | .hbm, ⟨58, _⟩ => ⟨S4x4096x1, .f32⟩
  | .hbm, ⟨59, _⟩ => ⟨S4x4096x1024, .f32⟩
  | .hbm, ⟨60, _⟩ => ⟨S4x4096x1024, .f32⟩
  | .hbm, ⟨61, _⟩ => ⟨S_, .f32⟩
  | .hbm, ⟨62, _⟩ => ⟨S4x4096x1, .f32⟩
  | .hbm, ⟨63, _⟩ => ⟨S4x4096x1, .f32⟩
  | .hbm, ⟨64, _⟩ => ⟨S4x4096x1, .f32⟩
  | .hbm, ⟨65, _⟩ => ⟨S4x4096x1024, .f32⟩
  | .hbm, ⟨66, _⟩ => ⟨S4x4096x1024, .f32⟩
  | .hbm, ⟨67, _⟩ => ⟨S1x1x1024, .f32⟩
  | .hbm, ⟨68, _⟩ => ⟨S4x4096x1024, .f32⟩
  | .hbm, ⟨69, _⟩ => ⟨S4x4096x1024, .f32⟩
  | .hbm, ⟨70, _⟩ => ⟨S1x1x1024, .f32⟩
  | .hbm, ⟨71, _⟩ => ⟨S4x4096x1024, .f32⟩
  | .hbm, ⟨72, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_v0 : Ref sig .tc := ⟨.hbm, 14, rfl⟩
abbrev main_call0_cst : Ref sig .tc := ⟨.hbm, 15, rfl⟩
abbrev main_call0_v1 : Ref sig .tc := ⟨.hbm, 16, rfl⟩
abbrev main_call0_v2 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_call1_v5 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_0 : Ref sig .tc := ⟨.hbm, 35, rfl⟩
abbrev main_v13 : Ref sig .tc := ⟨.hbm, 36, rfl⟩
abbrev main_v14 : Ref sig .tc := ⟨.hbm, 37, rfl⟩
abbrev main_cst_1 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_2 : Ref sig .tc := ⟨.hbm, 44, rfl⟩
abbrev main_v20 : Ref sig .tc := ⟨.hbm, 45, rfl⟩
abbrev main_v21 : Ref sig .tc := ⟨.hbm, 46, rfl⟩
abbrev main_cst_3 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_4 : Ref sig .tc := ⟨.hbm, 53, rfl⟩
abbrev main_v27 : Ref sig .tc := ⟨.hbm, 54, rfl⟩
abbrev main_v28 : Ref sig .tc := ⟨.hbm, 55, rfl⟩
abbrev main_cst_5 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_6 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩

abbrev nD : Nat := 1
abbrev τ : Topo := Topo.v7x

variable {F : FTy → Type} [FloatOps F]

class Facts₀ : Prop where
  reducesTo_S4x4096x1024_S4x4096_d2 : S4x4096x1024.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x1024_0_1_2 : S4x4096x1.BroadcastsInDim S4x4096x1024 (![0, 1, 2] : Fin 3 → Fin S4x4096x1024.rank)
  bcast_S_S4x4096x1024 : S_.BroadcastsInDim S4x4096x1024 (![] : Fin 0 → Fin S4x4096x1024.rank)
  bcast_S_S4x4096x16 : S_.BroadcastsInDim S4x4096x16 (![] : Fin 0 → Fin S4x4096x16.rank)
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  dot_S4x4096x1024_S1024x1024_S4x4096x1024_2_1_01_0_n_n_wf : DotDims.WF S4x4096x1024 S1024x1024 S4x4096x1024 [2] [1] [0, 1] [0] [] []
  dot_S4x4096x1024_S16x1024_S4x4096x16_2_1_01_0_n_n_wf : DotDims.WF S4x4096x1024 S16x1024 S4x4096x16 [2] [1] [0, 1] [0] [] []

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf
def dot_S4x4096x1024_S16x1024_S4x4096x16_2_1_01_0_n_n : DotDims S4x4096x1024 S16x1024 S4x4096x16 where
  lhsContracting := [2]
  rhsContracting := [1]
  lhsNonContracting := [0, 1]
  rhsNonContracting := [0]
  lhsBatch := []
  rhsBatch := []
  wf := dot_S4x4096x1024_S16x1024_S4x4096x16_2_1_01_0_n_n_wf

class Facts : Prop extends Facts₀ where

variable [Facts]
-- ==== Proof.GatedNorm.lean ====
/-
  A gated projection followed by a layer normalisation, one row at a time, on the extended reals.

  A row `xr` of 1024 features is projected twice, against the rows of `WV` and of `Wg`; the second projection gates the
  first through `g · logistic g`; the gated row is projected against the rows of `WO`, and the input row is added back.
  The result is then normalised along the row: the mean is subtracted, the centred row is scaled by the inverse square
  root of its mean square plus a small constant, and an affine map `· γ + β` is applied feature by feature.

  `result` is that row function applied to every row `(b, s)` of a `[4, 4096, 1024]` array.
-/
import Idealize.ShloMosaic.PureOps.Ideal
import Idealize.ShloMosaic.PureOps.Ideal.Laws
import Idealize.ShloMosaic.Lib.ValueIdx

noncomputable section

namespace Cert.GatedNorm

open Idealize.ShloMosaic Idealize.ShloMosaic.ValueIdx

/-- A row against the rows of a weight matrix: entry `q` is the inner product of the row with the matrix's row `q`. -/
def lin (xr : Fin 1024 → EReal) (W : Fin 1024 → Fin 1024 → EReal) (q : Fin 1024) : EReal :=
  ∑ k : Fin 1024, xr k * W q k

/-- The value projection gated by `g · logistic g` of the gate projection. -/
def gated (xr : Fin 1024 → EReal) (WV Wg : Fin 1024 → Fin 1024 → EReal) (v : Fin 1024) : EReal :=
  lin xr WV v * (lin xr Wg v * Ideal.logistic (lin xr Wg v))

/-- The gated row projected against the rows of `WO`, plus the input row. -/
def pre (xr : Fin 1024 → EReal) (WV Wg WO : Fin 1024 → Fin 1024 → EReal) (d : Fin 1024) : EReal :=
  (∑ v : Fin 1024, gated xr WV Wg v * WO d v) + xr d

/-- The mean of a row: its sum divided by 1024 (the divisor is the binary word of `1024.0`, which both programs print). -/
def mean (f : Fin 1024 → EReal) : EReal :=
  Ideal.div (∑ d : Fin 1024, f d) (Ideal.ofBits .f32 0x44800000#32)

/-- A row less its mean. -/
def centered (f : Fin 1024 → EReal) (d : Fin 1024) : EReal := f d - mean f

/-- The inverse square root of the centred row's mean square plus the small constant both programs print. -/
def invStd (f : Fin 1024 → EReal) : EReal :=
  Ideal.rsqrt (mean (fun e => centered f e * centered f e) + Ideal.ofBits .f32 0x3727C5AC#32)

/-- The normalised row under the affine map. -/
def layerNorm (f γ β : Fin 1024 → EReal) (d : Fin 1024) : EReal :=
  centered f d * invStd f * γ d + β d

/-- One row of the result. -/
def rowOut (xr : Fin 1024 → EReal) (WV Wg WO : Fin 1024 → Fin 1024 → EReal) (γ β : Fin 1024 → EReal) (d : Fin 1024) : EReal :=
  layerNorm (pre xr WV Wg WO) γ β d

/-- Row `(b, s)` of a `[4, 4096, 1024]` array. -/
def rowOf (x : (⟨3, ![4, 4096, 1024]⟩ : Shape).Idx → EReal) (b : Fin 4) (s : Fin 4096) : Fin 1024 → EReal :=
  fun k => x (ix3 b s k)

/-- A `[1024, 1024]` array as a function of its two coordinates. -/
def mat (W : (⟨2, ![1024, 1024]⟩ : Shape).Idx → EReal) : Fin 1024 → Fin 1024 → EReal := fun q k => W (ix2 q k)

/-- A `[1024]` array as a function of its coordinate. -/
def vec (v : (⟨1, ![1024]⟩ : Shape).Idx → EReal) : Fin 1024 → EReal := fun d => v (ix1 d)

/-- The whole result: every row of `x` through the row function. -/
def result (x : (⟨3, ![4, 4096, 1024]⟩ : Shape).Idx → EReal) (WV Wg WO : (⟨2, ![1024, 1024]⟩ : Shape).Idx → EReal)
    (γ β : (⟨1, ![1024]⟩ : Shape).Idx → EReal) : (⟨3, ![4, 4096, 1024]⟩ : Shape).Idx → EReal :=
  fun i => rowOut (rowOf x (i 0) (i 1)) (mat WV) (mat Wg) (mat WO) (vec γ) (vec β) (i 2)

theorem result_apply (x : (⟨3, ![4, 4096, 1024]⟩ : Shape).Idx → EReal) (WV Wg WO : (⟨2, ![1024, 1024]⟩ : Shape).Idx → EReal)
    (γ β : (⟨1, ![1024]⟩ : Shape).Idx → EReal) (b : Fin 4) (s : Fin 4096) (d : Fin 1024) :
    result x WV Wg WO γ β (ix3 b s d) = rowOut (rowOf x b s) (mat WV) (mat Wg) (mat WO) (vec γ) (vec β) d := rfl

end Cert.GatedNorm

end
-- ==== Proof.LibCols.lean ====
/-
  A column of per-row numbers against a matrix, read entry by entry. A vector of `a` entries made a column `[a, 1]`
  reads its entry `p` at `(p, 0)`; a column repeated across `b` columns reads its entry `p` at `(p, c)`. Both in the
  vector unit's spelling (a shape cast, a broadcast) and in the host's (two `broadcast_in_dim`s). These are the forms
  a keep-dimensions row reduction takes on its way back to the matrix it was reduced from.
-/
import Idealize.ShloMosaic.Lib.Pipeline.Value
import Idealize.ShloMosaic.Lib.ValueIdx
import Idealize.ShloMosaic.Lib.ValueLayout

namespace Cert.LibCols

open Idealize.ShloMosaic Idealize.ShloMosaic.ValueIdx

variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's column: an `[a]` vector broadcast along axis 0 into `[a, 1]` reads, at `(p, u)`, the vector's entry `p`. -/
theorem inDim_a_a1_apply {a : ℕ} (v : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- The host's repeated column: an `[a, 1]` array broadcast along both axes into `[a, b]` reads, at `(p, c)`, entry `p`. -/
theorem inDim_a1_ab_apply {a b : ℕ} (v : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

end Cert.LibCols
-- ==== Proof.KernelRow.lean ====
/-
  What the kernel's body stores, at an entry `(p, q)` of its `[512, 1024]` block: the row function of `GatedNorm` on
  row `p` of the block of inputs. The body multiplies the block of rows by ONE `[2048, 1024]` weight block whose first
  1024 rows are the value weights and whose last 1024 rows are the gate weights, so columns `q` and `q + 1024` of that
  product are the value and the gate projections; a matrix product into a zero accumulator is the plain sum over the
  contracted axis, a lane reduction is the sum along the row, and the changes of float format are the identity on the
  extended reals. The body is restated as a composition of named stages (`pay_eq`, by unfolding), and each stage is read
  at an entry.
-/
import proofs.«168899_j62302795596568_2_alg».proof.Proof.Gen.KernelIdeal.Skeleton
import proofs.«168899_j62302795596568_2_alg».proof.Proof.GatedNorm
import proofs.«168899_j62302795596568_2_alg».proof.Proof.LibCols
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Row

open Cert.KernelIdeal Cert.KernelIdeal.Gen Cert.GatedNorm Idealize.ShloMosaic Idealize.ShloMosaic.ValueIdx

/-! ## The two matrix products, read at an entry -/

theorem vg_lhs0 (j : S512x2048.Idx) (q : dot_S512x1024_S2048x1024_S512x2048_1_1_0_0_n_n.contr.Idx) :
    (dot_S512x1024_S2048x1024_S512x2048_1_1_0_0_n_n.lhsIdx j q 0).val = (j 0).val := by
  unfold DotDims.lhsIdx
  rw [dif_neg (show ¬(0 : Fin S512x1024.rank) ∈ dot_S512x1024_S2048x1024_S512x2048_1_1_0_0_n_n.lhsBatch by decide), dif_pos (show (0 : Fin S512x1024.rank) ∈ dot_S512x1024_S2048x1024_S512x2048_1_1_0_0_n_n.lhsNonContracting by decide)]
  rfl
theorem vg_lhs1 (j : S512x2048.Idx) (q : dot_S512x1024_S2048x1024_S512x2048_1_1_0_0_n_n.contr.Idx) :
    (dot_S512x1024_S2048x1024_S512x2048_1_1_0_0_n_n.lhsIdx j q 1).val = (q ⟨0, by decide⟩).val :=
  dot_S512x1024_S2048x1024_S512x2048_1_1_0_0_n_n.lhsIdx_val_of_single rfl j q
theorem vg_rhs0 (j : S512x2048.Idx) (q : dot_S512x1024_S2048x1024_S512x2048_1_1_0_0_n_n.contr.Idx) :
    (dot_S512x1024_S2048x1024_S512x2048_1_1_0_0_n_n.rhsIdx j q 0).val = (j 1).val := by
  unfold DotDims.rhsIdx
  rw [dif_neg (show ¬(0 : Fin S2048x1024.rank) ∈ dot_S512x1024_S2048x1024_S512x2048_1_1_0_0_n_n.rhsBatch by decide), dif_pos (show (0 : Fin S2048x1024.rank) ∈ dot_S512x1024_S2048x1024_S512x2048_1_1_0_0_n_n.rhsNonContracting by decide)]
  rfl
theorem vg_rhs1 (j : S512x2048.Idx) (q : dot_S512x1024_S2048x1024_S512x2048_1_1_0_0_n_n.contr.Idx) :
    (dot_S512x1024_S2048x1024_S512x2048_1_1_0_0_n_n.rhsIdx j q 1).val = (q ⟨0, by decide⟩).val :=
  dot_S512x1024_S2048x1024_S512x2048_1_1_0_0_n_n.rhsIdx_val_of_single rfl j q

theorem o_lhs0 (j : S512x1024.Idx) (q : dot_S512x1024_S1024x1024_S512x1024_1_1_0_0_n_n.contr.Idx) :
    (dot_S512x1024_S1024x1024_S512x1024_1_1_0_0_n_n.lhsIdx j q 0).val = (j 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem o_lhs1 (j : S512x1024.Idx) (q : dot_S512x1024_S1024x1024_S512x1024_1_1_0_0_n_n.contr.Idx) :
    (dot_S512x1024_S1024x1024_S512x1024_1_1_0_0_n_n.lhsIdx j q 1).val = (q ⟨0, by decide⟩).val :=
  dot_S512x1024_S1024x1024_S512x1024_1_1_0_0_n_n.lhsIdx_val_of_single rfl j q
theorem o_rhs0 (j : S512x1024.Idx) (q : dot_S512x1024_S1024x1024_S512x1024_1_1_0_0_n_n.contr.Idx) :
    (dot_S512x1024_S1024x1024_S512x1024_1_1_0_0_n_n.rhsIdx j q 0).val = (j 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem o_rhs1 (j : S512x1024.Idx) (q : dot_S512x1024_S1024x1024_S512x1024_1_1_0_0_n_n.contr.Idx) :
    (dot_S512x1024_S1024x1024_S512x1024_1_1_0_0_n_n.rhsIdx j q 1).val = (q ⟨0, by decide⟩).val :=
  dot_S512x1024_S1024x1024_S512x1024_1_1_0_0_n_n.rhsIdx_val_of_single rfl j q

/-- The product of the block of rows with the stacked weight block, into a zero accumulator: entry `(p, n)` is the inner product of row `p` with weight row `n`. -/
theorem vg_at (l : FVec Ideal S512x1024 .bf16) (r : FVec Ideal S2048x1024 .bf16) (p : Fin 512) (n : Fin 2048) :
    matmul dot_S512x1024_S2048x1024_S512x2048_1_1_0_0_n_n none l r (constant (F := Ideal) S512x2048 .f32 0x00000000#32) (ix2 p n)
      = ∑ k : Fin 1024, l (ix2 p k) * r (ix2 n k) := by
  show FloatOps.matmul dot_S512x1024_S2048x1024_S512x2048_1_1_0_0_n_n none l r (constant (F := Ideal) S512x2048 .f32 0x00000000#32) (ix2 p n) = _
  rw [Ideal.matmul_constant_zero_apply, ← Equiv.sum_comp (contrEquiv1 dot_S512x1024_S2048x1024_S512x2048_1_1_0_0_n_n 1024 rfl rfl).symm]
  refine Finset.sum_congr rfl fun k _ => ?_
  have hk := contrEquiv1_symm_val dot_S512x1024_S2048x1024_S512x2048_1_1_0_0_n_n 1024 rfl rfl k
  have el : dot_S512x1024_S2048x1024_S512x2048_1_1_0_0_n_n.lhsIdx (ix2 p n) ((contrEquiv1 dot_S512x1024_S2048x1024_S512x2048_1_1_0_0_n_n 1024 rfl rfl).symm k) = ix2 p k := funext fun a => Fin.ext (by
    match a with
    | ⟨0, _⟩ => exact vg_lhs0 _ _
    | ⟨1, _⟩ => exact (vg_lhs1 _ _).trans hk)
  have er : dot_S512x1024_S2048x1024_S512x2048_1_1_0_0_n_n.rhsIdx (ix2 p n) ((contrEquiv1 dot_S512x1024_S2048x1024_S512x2048_1_1_0_0_n_n 1024 rfl rfl).symm k) = ix2 n k := funext fun a => Fin.ext (by
    match a with
    | ⟨0, _⟩ => exact vg_rhs0 _ _
    | ⟨1, _⟩ => exact (vg_rhs1 _ _).trans hk)
  rw [el, er]

/-- The output projection likewise. -/
theorem o_at (l : FVec Ideal S512x1024 .bf16) (r : FVec Ideal S1024x1024 .bf16) (p : Fin 512) (n : Fin 1024) :
    matmul dot_S512x1024_S1024x1024_S512x1024_1_1_0_0_n_n none l r (constant (F := Ideal) S512x1024 .f32 0x00000000#32) (ix2 p n)
      = ∑ k : Fin 1024, l (ix2 p k) * r (ix2 n k) := by
  show FloatOps.matmul dot_S512x1024_S1024x1024_S512x1024_1_1_0_0_n_n none l r (constant (F := Ideal) S512x1024 .f32 0x00000000#32) (ix2 p n) = _
  rw [Ideal.matmul_constant_zero_apply, ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 p n) ((contrEquiv1 dot_S512x1024_S1024x1024_S512x1024_1_1_0_0_n_n 1024 rfl rfl).symm k) = ix2 p k := funext fun a => Fin.ext (by
    match a with
    | ⟨0, _⟩ => exact o_lhs0 _ _
    | ⟨1, _⟩ => exact (o_lhs1 _ _).trans hk)
  have er : dot_S512x1024_S1024x1024_S512x1024_1_1_0_0_n_n.rhsIdx (ix2 p n) ((contrEquiv1 dot_S512x1024_S1024x1024_S512x1024_1_1_0_0_n_n 1024 rfl rfl).symm k) = ix2 n k := funext fun a => Fin.ext (by
    match a with
    | ⟨0, _⟩ => exact o_rhs0 _ _
    | ⟨1, _⟩ => exact (o_rhs1 _ _).trans hk)
  rw [el, er]

/-! ## The two halves of the stacked product, and a row sum -/

/-- Column `q` of the first half of a 2048-wide row. -/
def lo (q : Fin 1024) : Fin 2048 := ⟨q.val, by have := q.isLt; omega⟩
/-- Column `q` of the second half. -/
def hi (q : Fin 1024) : Fin 2048 := ⟨q.val + 1024, by have := q.isLt; omega⟩

theorem sliceLo_at (v : FVec Ideal S512x2048 .f32) (p : Fin 512) (q : Fin 1024) :
    extractStridedSlice S512x1024 ![0, 0] v slices_S512x2048_o0_0_S512x1024 (ix2 p q) = v (ix2 p (lo q)) :=
  extractStridedSlice_apply _ v _ (ix2 p q) (ix2 p (lo q)) fun a => by
    match a with
    | ⟨0, _⟩ => show p.val = 0 + p.val; omega
    | ⟨1, _⟩ => show q.val = 0 + q.val; omega

theorem sliceHi_at (v : FVec Ideal S512x2048 .f32) (p : Fin 512) (q : Fin 1024) :
    extractStridedSlice S512x1024 ![0, 1024] v slices_S512x2048_o0_1024_S512x1024 (ix2 p q) = v (ix2 p (hi q)) :=
  extractStridedSlice_apply _ v _ (ix2 p q) (ix2 p (hi q)) fun a => by
    match a with
    | ⟨0, _⟩ => show p.val = 0 + p.val; omega
    | ⟨1, _⟩ => show q.val + 1024 = 1024 + q.val; omega

/-- A lane reduction of a `[512, 1024]` block is, at row `p`, the sum of the row. -/
theorem rowSum_at (v : FVec Ideal S512x1024 .f32) (p : Fin 512) :
    multiReduction .add [1] S512 v 0x00000000#32 reduces_S512x1024_S512 (.inl rfl) rfl (ix1 p) = ∑ d : Fin 1024, v (ix2 p d) := by
  refine (Ideal.multiReduction_add_single v 0x00000000#32 reduces_S512x1024_S512 (.inl rfl) rfl (ix1 p)).trans ?_
  exact Finset.sum_congr rfl fun d _ => congrArg v (funext fun a => Fin.ext (by match a with | ⟨0, _⟩ => rfl | ⟨1, _⟩ => rfl))

/-! ## The body as named stages -/

/-- The block of rows against the stacked weights. -/
def Vg (x0 : Vec Ideal S512x1024 .f32) (x1 : Vec Ideal S2048x1024 .bf16) : FVec Ideal S512x2048 .f32 :=
  matmul dot_S512x1024_S2048x1024_S512x2048_1_1_0_0_n_n none (truncf .bf16 (shapeCast S512x1024 x0 shapeCasts_S512x1024_S512x1024) bitsLt_bf16_f32)
    (shapeCast S2048x1024 x1 shapeCasts_S2048x1024_S2048x1024 : FVec Ideal S2048x1024 .bf16) (constant S512x2048 .f32 0x00000000#32)

/-- The value half times the gated gate half. -/
def Gated (x0 : Vec Ideal S512x1024 .f32) (x1 : Vec Ideal S2048x1024 .bf16) : FVec Ideal S512x1024 .f32 :=
  mulf (extractStridedSlice S512x1024 ![0, 0] (Vg x0 x1) slices_S512x2048_o0_0_S512x1024)
    (mulf (extractStridedSlice S512x1024 ![0, 1024] (Vg x0 x1) slices_S512x2048_o0_1024_S512x1024)
      (logistic (extractStridedSlice S512x1024 ![0, 1024] (Vg x0 x1) slices_S512x2048_o0_1024_S512x1024)))

/-- The output projection plus the block of rows. -/
def Pre (x0 : Vec Ideal S512x1024 .f32) (x1 : Vec Ideal S2048x1024 .bf16) (x2 : Vec Ideal S1024x1024 .bf16) : FVec Ideal S512x1024 .f32 :=
  addf (matmul dot_S512x1024_S1024x1024_S512x1024_1_1_0_0_n_n none (truncf .bf16 (Gated x0 x1) bitsLt_bf16_f32)
      (shapeCast S1024x1024 x2 shapeCasts_S1024x1024_S1024x1024 : FVec Ideal S1024x1024 .bf16) (constant S512x1024 .f32 0x00000000#32))
    (shapeCast S512x1024 x0 shapeCasts_S512x1024_S512x1024)

/-- Each row's mean, as a column. -/
def Mean (v : FVec Ideal S512x1024 .f32) : FVec Ideal S512x1 .f32 :=
  divf (shapeCast S512x1 (multiReduction .add [1] S512 v 0x00000000#32 reduces_S512x1024_S512 (.inl rfl) rfl) shapeCasts_S512_S512x1)
    (broadcast S512x1 (Scalar.ofBits .f32 0x44800000#32))

/-- Each row less its mean. -/
def Cen (v : FVec Ideal S512x1024 .f32) : FVec Ideal S512x1024 .f32 :=
  subf v (broadcastTo S512x1024 (Mean v) broadcasts_S512x1_S512x1024)

/-- Each row's inverse standard deviation, as a column. -/
def InvStd (v : FVec Ideal S512x1024 .f32) : FVec Ideal S512x1 .f32 :=
  rsqrt (addf (Mean (mulf (Cen v) (Cen v))) (broadcast S512x1 (Scalar.ofBits .f32 0x3727C5AC#32)))

/-- The normalised rows under the affine map. -/
def Norm (v : FVec Ideal S512x1024 .f32) (x3 x4 : Vec Ideal S1x1024 .f32) : FVec Ideal S512x1024 .f32 :=
  addf (mulf (mulf (Cen v) (broadcastTo S512x1024 (InvStd v) broadcasts_S512x1_S512x1024))
      (broadcastTo S512x1024 (shapeCast S1x1024 (shapeCast S1x1024 x3 shapeCasts_S1x1024_S1x1024) shapeCasts_S1x1024_S1x1024) broadcasts_S1x1024_S512x1024))
    (broadcastTo S512x1024 (shapeCast S1x1024 (shapeCast S1x1024 x4 shapeCasts_S1x1024_S1x1024) shapeCasts_S1x1024_S1x1024) broadcasts_S1x1024_S512x1024)

/-- The body's stored value is the composition of the stages. -/
theorem pay_eq (x0 : Vec Ideal S512x1024 .f32) (x1 : Vec Ideal S2048x1024 .bf16) (x2 : Vec Ideal S1024x1024 .bf16) (x3 x4 : Vec Ideal S1x1024 .f32) :
    k0_pay1 x0 x1 x2 x3 x4 = Norm (Pre x0 x1 x2) x3 x4 := rfl

/-! ## The stages at an entry -/

variable (x0 : Vec Ideal S512x1024 .f32) (x1 : Vec Ideal S2048x1024 .bf16) (x2 : Vec Ideal S1024x1024 .bf16) (x3 x4 : Vec Ideal S1x1024 .f32)

/-- Row `p` of a `[512, 1024]` block. -/
def blkRow (v : Vec Ideal S512x1024 .f32) (p : Fin 512) : Fin 1024 → EReal := fun k => v (ix2 p k)
/-- The first 1024 rows of the stacked weight block. -/
def wLo (w : Vec Ideal S2048x1024 .bf16) : Fin 1024 → Fin 1024 → EReal := fun n k => w (ix2 (lo n) k)
/-- The last 1024 rows. -/
def wHi (w : Vec Ideal S2048x1024 .bf16) : Fin 1024 → Fin 1024 → EReal := fun n k => w (ix2 (hi n) k)
/-- A `[1024, 1024]` block by coordinates. -/
def wSq (w : Vec Ideal S1024x1024 .bf16) : Fin 1024 → Fin 1024 → EReal := fun n k => w (ix2 n k)
/-- The one row of a `[1, 1024]` block. -/
def oneRow (v : Vec Ideal S1x1024 .f32) : Fin 1024 → EReal := fun d => v (ix2 (0 : Fin 1) d)

theorem Vg_at (p : Fin 512) (n : Fin 2048) : Vg x0 x1 (ix2 p n) = ∑ k : Fin 1024, x0 (ix2 p k) * x1 (ix2 n k) := by
  unfold Vg
  rw [shapeCast_self, shapeCast_self, vg_at]
  rfl

theorem Gated_at (p : Fin 512) (q : Fin 1024) : Gated x0 x1 (ix2 p q) = gated (blkRow x0 p) (wLo x1) (wHi x1) q := by
  show extractStridedSlice S512x1024 ![0, 0] (Vg x0 x1) slices_S512x2048_o0_0_S512x1024 (ix2 p q)
    * (extractStridedSlice S512x1024 ![0, 1024] (Vg x0 x1) slices_S512x2048_o0_1024_S512x1024 (ix2 p q)
      * Ideal.logistic (extractStridedSlice S512x1024 ![0, 1024] (Vg x0 x1) slices_S512x2048_o0_1024_S512x1024 (ix2 p q))) = _
  rw [sliceLo_at, sliceHi_at, Vg_at, Vg_at]
  rfl

theorem Pre_at (p : Fin 512) (d : Fin 1024) : Pre x0 x1 x2 (ix2 p d) = pre (blkRow x0 p) (wLo x1) (wHi x1) (wSq x2) d := by
  unfold Pre
  rw [shapeCast_self, shapeCast_self]
  show matmul dot_S512x1024_S1024x1024_S512x1024_1_1_0_0_n_n none (truncf .bf16 (Gated x0 x1) bitsLt_bf16_f32) (x2 : FVec Ideal S1024x1024 .bf16) (constant (F := Ideal) S512x1024 .f32 0x00000000#32) (ix2 p d) + x0 (ix2 p d) = _
  rw [o_at]
  refine congrArg (· + x0 (ix2 p d)) (Finset.sum_congr rfl fun v _ => ?_)
  rw [show truncf .bf16 (Gated x0 x1) bitsLt_bf16_f32 (ix2 p v) = Gated x0 x1 (ix2 p v) from rfl, Gated_at]
  rfl

theorem Mean_at (v : FVec Ideal S512x1024 .f32) (p : Fin 512) : Mean v (ix2 p (0 : Fin 1)) = mean (blkRow v p) := by
  show Ideal.div (shapeCast S512x1 (multiReduction .add [1] S512 v 0x00000000#32 reduces_S512x1024_S512 (.inl rfl) rfl) shapeCasts_S512_S512x1 (ix2 p (0 : Fin 1)))
    (Ideal.ofBits .f32 0x44800000#32) = _
  rw [Cert.LibCols.shapeCast_a_a1_apply, rowSum_at]
  rfl

theorem Cen_at (v : FVec Ideal S512x1024 .f32) (p : Fin 512) (d : Fin 1024) : Cen v (ix2 p d) = centered (blkRow v p) d := by
  show v (ix2 p d) - broadcastTo S512x1024 (Mean v) broadcasts_S512x1_S512x1024 (ix2 p d) = _
  rw [Cert.LibCols.broadcastTo_a1_ab_apply, Mean_at]
  rfl

theorem InvStd_at (v : FVec Ideal S512x1024 .f32) (p : Fin 512) : InvStd v (ix2 p (0 : Fin 1)) = invStd (blkRow v p) := by
  show Ideal.rsqrt (Mean (mulf (Cen v) (Cen v)) (ix2 p (0 : Fin 1)) + Ideal.ofBits .f32 0x3727C5AC#32) = _
  rw [Mean_at]
  have e : blkRow (mulf (Cen v) (Cen v)) p = fun e => centered (blkRow v p) e * centered (blkRow v p) e :=
    funext fun e => by
      show Cen v (ix2 p e) * Cen v (ix2 p e) = _
      rw [Cen_at]
  rw [e]
  rfl

theorem Norm_at (v : FVec Ideal S512x1024 .f32) (p : Fin 512) (d : Fin 1024) :
    Norm v x3 x4 (ix2 p d) = layerNorm (blkRow v p) (oneRow x3) (oneRow x4) d := by
  unfold Norm
  rw [shapeCast_self, shapeCast_self, shapeCast_self, shapeCast_self]
  show Cen v (ix2 p d) * broadcastTo S512x1024 (InvStd v) broadcasts_S512x1_S512x1024 (ix2 p d)
      * broadcastTo S512x1024 x3 broadcasts_S1x1024_S512x1024 (ix2 p d)
    + broadcastTo S512x1024 x4 broadcasts_S1x1024_S512x1024 (ix2 p d) = _
  rw [Cert.LibCols.broadcastTo_a1_ab_apply, InvStd_at, Cen_at, broadcastTo_1b_ab_apply, broadcastTo_1b_ab_apply]
  rfl

/-- THE BODY's stored value at `(p, q)`: the row function on row `p` of the block of inputs, at `q`. -/
theorem pay_at (p : Fin 512) (q : Fin 1024) :
    k0_pay1 x0 x1 x2 x3 x4 (ix2 p q)
      = rowOut (blkRow x0 p) (wLo x1) (wHi x1) (wSq x2) (oneRow x3) (oneRow x4) q := by
  rw [pay_eq, Norm_at]
  have e : blkRow (Pre x0 x1 x2) p = pre (blkRow x0 p) (wLo x1) (wHi x1) (wSq x2) := funext fun d => Pre_at x0 x1 x2 p d
  rw [e]
  rfl

end Cert.KernelIdeal.Row

end
-- ==== Proof.KernelHost.lean ====
/-
  The arrays the region finds, read at an entry of the program's arguments. Before the region the program flattens the
  input `[4, 4096, 1024]` to `[16384, 1024]` (row `b · 4096 + s` of the flat array is row `(b, s)`), stacks the value
  weights on the gate weights into one `[2048, 1024]` array (rows `n` and `n + 1024` are row `n` of each), changes the
  float format of both weight arrays (the identity on the extended reals), and makes the two affine vectors rows of
  `[1, 1024]` arrays. After the region it unflattens the result.
-/
import proofs.«168899_j62302795596568_2_alg».proof.Proof.Gen.KernelIdeal.Frame
import proofs.«168899_j62302795596568_2_alg».proof.Proof.KernelRow
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.HostSide

open Cert.KernelIdeal Cert.KernelIdeal.Gen Cert.KernelIdeal.Row Cert.GatedNorm
open Idealize.ShloMosaic Idealize.ShloMosaic.TcCoe Idealize.SL.Sem Idealize.ShloMosaic.ValueIdx Idealize.ShloMosaic.StableHlo

variable (m : (ℓ : Loc nD τ sig) → Buf (Elt Ideal) ℓ)

/-! ## The arrays as the region finds them: the operations before it applied to the arguments -/

theorem V_v0 (c : Dev nD) : (V m c main_v0 : S16384x1024.Idx → EReal)
    = shapeCast S16384x1024 (m ((c : Thread nD τ).loc main_arg0)) shapeCasts_S4x4096x1024_S16384x1024 := by
  show StableHlo.after hostOps0 (fun b => m (c, b)) (Proc.devRef .tc main_v0) = _
  after_results
  rfl

theorem V_v2 (c : Dev nD) : (V m c main_v2 : S2048x1024.Idx → EReal)
    = truncf (F := Ideal) (φ := .f32) .bf16 (concatenate S2048x1024 0 [⟨S1024x1024, m ((c : Thread nD τ).loc main_arg3)⟩, ⟨S1024x1024, m ((c : Thread nD τ).loc main_arg4)⟩]
        concatenates_S1024x1024_S1024x1024_S2048x1024_d0) bitsLt_bf16_f32 := by
  show StableHlo.after hostOps0 (fun b => m (c, b)) (Proc.devRef .tc main_v2) = _
  after_results

theorem V_v3 (c : Dev nD) : (V m c main_v3 : S1024x1024.Idx → EReal)
    = truncf (F := Ideal) (φ := .f32) (s := S1024x1024) .bf16 (m ((c : Thread nD τ).loc main_arg6)) bitsLt_bf16_f32 := by
  show StableHlo.after hostOps0 (fun b => m (c, b)) (Proc.devRef .tc main_v3) = _
  after_results

theorem V_v4 (c : Dev nD) : (V m c main_v4 : S1x1024.Idx → EReal)
    = shapeCast S1x1024 (m ((c : Thread nD τ).loc main_arg7)) shapeCasts_S1024_S1x1024 := by
  show StableHlo.after hostOps0 (fun b => m (c, b)) (Proc.devRef .tc main_v4) = _
  after_results
  rfl

theorem V_v5 (c : Dev nD) : (V m c main_v5 : S1x1024.Idx → EReal)
    = shapeCast S1x1024 (m ((c : Thread nD τ).loc main_arg8)) shapeCasts_S1024_S1x1024 := by
  show StableHlo.after hostOps0 (fun b => m (c, b)) (Proc.devRef .tc main_v5) = _
  after_results
  rfl

/-! ## Those operations at an entry -/

/-- Row `b · 4096 + s` of the flattened input is row `(b, s)`. -/
theorem flat_at (X : S4x4096x1024.Idx → EReal) (b : Fin 4) (s : Fin 4096) (k : Fin 1024) (r : Fin 16384) (hr : r.val = b.val * 4096 + s.val) :
    shapeCast S16384x1024 X shapeCasts_S4x4096x1024_S16384x1024 (ix2 r k) = X (ix3 b s k) :=
  shapeCast_apply X _ (ix2 r k) (ix3 b s k) (by
    rw [Shape.rowMajor_val_three, Shape.rowMajor_val_two]
    show (b.val * 4096 + s.val) * 1024 + k.val = r.val * 1024 + k.val
    rw [hr])

/-- Entry `(b, s, d)` of an unflattened `[16384, 1024]` array is its entry `(b · 4096 + s, d)`. -/
theorem unflat_at (Y : S16384x1024.Idx → EReal) (b : Fin 4) (s : Fin 4096) (d : Fin 1024) (r : Fin 16384) (hr : r.val = b.val * 4096 + s.val) :
    shapeCast S4x4096x1024 Y shapeCasts_S16384x1024_S4x4096x1024 (ix3 b s d) = Y (ix2 r d) :=
  shapeCast_apply Y _ (ix3 b s d) (ix2 r d) (by
    rw [Shape.rowMajor_val_three, Shape.rowMajor_val_two]
    show r.val * 1024 + d.val = (b.val * 4096 + s.val) * 1024 + d.val
    rw [hr])

/-- Row `n` of the stack is row `n` of the first array. -/
theorem stack_lo (A B : S1024x1024.Idx → EReal) (n k : Fin 1024) :
    concatenate S2048x1024 0 [⟨S1024x1024, A⟩, ⟨S1024x1024, B⟩] concatenates_S1024x1024_S1024x1024_S2048x1024_d0 (ix2 (lo n) k) = A (ix2 n k) :=
  concatenate_pair_apply_left 0 A B _ (ix2 (lo n) k) rfl (ix2 n k) fun a => by
    match a with
    | ⟨0, _⟩ => rfl
    | ⟨1, _⟩ => rfl

/-- Row `n + 1024` of the stack is row `n` of the second array. -/
theorem stack_hi (A B : S1024x1024.Idx → EReal) (n k : Fin 1024) :
    concatenate S2048x1024 0 [⟨S1024x1024, A⟩, ⟨S1024x1024, B⟩] concatenates_S1024x1024_S1024x1024_S2048x1024_d0 (ix2 (hi n) k) = B (ix2 n k) :=
  concatenate_pair_apply_right 0 A B _ (ix2 (hi n) k) rfl rfl (ix2 n k)
    (fun a ha => by
      match a with
      | ⟨0, _⟩ => exact absurd rfl ha
      | ⟨1, _⟩ => rfl)
    (by show n.val + 1024 = n.val + 1024; rfl)

/-! ## The region's operands as functions of the arguments -/

/-- Row `b · 4096 + s` of the region's first operand is row `(b, s)` of the input. -/
theorem row_v0 (c : Dev nD) (b : Fin 4) (s : Fin 4096) (r : Fin 16384) (hr : r.val = b.val * 4096 + s.val) :
    (fun k : Fin 1024 => (V m c main_v0 : S16384x1024.Idx → EReal) (ix2 r k)) = rowOf (m ((c : Thread nD τ).loc main_arg0)) b s :=
  funext fun k => by rw [V_v0]; exact flat_at _ b s k r hr

/-- The first half of the stacked weights is the value weights, the second half the gate weights. -/
theorem lo_v2 (c : Dev nD) : wLo (V m c main_v2) = mat (m ((c : Thread nD τ).loc main_arg3)) :=
  funext fun n => funext fun k => by
    show (V m c main_v2 : S2048x1024.Idx → EReal) (ix2 (lo n) k) = _
    rw [V_v2, truncf_apply]
    exact stack_lo _ _ n k
theorem hi_v2 (c : Dev nD) : wHi (V m c main_v2) = mat (m ((c : Thread nD τ).loc main_arg4)) :=
  funext fun n => funext fun k => by
    show (V m c main_v2 : S2048x1024.Idx → EReal) (ix2 (hi n) k) = _
    rw [V_v2, truncf_apply]
    exact stack_hi _ _ n k

/-- The output weights. -/
theorem sq_v3 (c : Dev nD) : wSq (V m c main_v3) = mat (m ((c : Thread nD τ).loc main_arg6)) :=
  funext fun n => funext fun k => by
    show (V m c main_v3 : S1024x1024.Idx → EReal) (ix2 n k) = _
    rw [V_v3, truncf_apply]
    rfl

/-- The two affine vectors. -/
theorem row_v4 (c : Dev nD) : oneRow (V m c main_v4) = vec (m ((c : Thread nD τ).loc main_arg7)) :=
  funext fun d => by
    show (V m c main_v4 : S1x1024.Idx → EReal) (ix2 (0 : Fin 1) d) = _
    rw [V_v4]
    exact shapeCast_a_1a_apply _ _ 0 d
theorem row_v5 (c : Dev nD) : oneRow (V m c main_v5) = vec (m ((c : Thread nD τ).loc main_arg8)) :=
  funext fun d => by
    show (V m c main_v5 : S1x1024.Idx → EReal) (ix2 (0 : Fin 1) d) = _
    rw [V_v5]
    exact shapeCast_a_1a_apply _ _ 0 d

end Cert.KernelIdeal.HostSide

end
-- ==== Proof.KernelArray.lean ====
/-
  From blocks to the array. The grid has 32 points; at point `t` the first operand's block is rows `512 t … 512 t + 511`
  of the flat `[16384, 1024]` array, the four other operands' blocks are their whole arrays, and the body's stored block is
  written back to rows `512 t … 512 t + 511` of the result. So each entry `(r, q)` of the result array is the row function
  on row `r` of the first operand, at `q`; the 32 blocks cover the array (row `r` lies in the block of point `r / 512`).
-/
import proofs.«168899_j62302795596568_2_alg».proof.Proof.Gen.KernelIdeal.Frame
import proofs.«168899_j62302795596568_2_alg».proof.Proof.KernelRow
import Idealize.ShloMosaic.Lib.Pipeline.Value
import Idealize.ShloMosaic.Lib.ValueIdx

noncomputable section

namespace Cert.KernelIdeal.Blocks

open Cert.KernelIdeal Cert.KernelIdeal.Gen Cert.KernelIdeal.Row Cert.GatedNorm
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The printed index maps over the grid: the first operand's and the result's block index is the point on axis 0;
    every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Each operand's block at a point, as entries of the array the region finds -/

/-- Row `p` of the first operand's block at point `t` is row `512 t + p` of the flat array. -/
theorem blk0_row (c : Dev nD) (t : Fin cfg0.N) (p : Fin 512) (r : Fin 16384) (hr : r.val = 512 * t.val + p.val) :
    blkRow (iblk m c 0 t) p = fun k : Fin 1024 => (V m c main_v0 : S16384x1024.Idx → EReal) (ix2 r k) := by
  obtain ⟨e0, e1, -⟩ := idx_facts t
  funext k
  show V m c main_v0 (((cfg0.win 0).blk t).view.emb (ix2 p k)) = V m c main_v0 (ix2 r k)
  refine congrArg (V m c main_v0) (funext fun a => Fin.ext ?_)
  match a with
  | ⟨0, _⟩ => show win0_0.index t (0 : Fin 2) * 512 + 1 * p.val = r.val; omega
  | ⟨1, _⟩ => show win0_0.index t (1 : Fin 2) * 1024 + 1 * k.val = k.val; omega

/-- The stacked weights' block is the whole array. -/
theorem blk1_eq (c : Dev nD) (t : Fin cfg0.N) : (iblk m c 1 t : Vec Ideal S2048x1024 .bf16) = V m c main_v2 := by
  obtain ⟨-, -, e0, e1, -⟩ := idx_facts t
  funext y
  show V m c main_v2 (((cfg0.win 1).blk t).view.emb y) = V m c main_v2 y
  refine congrArg (V m c main_v2) (funext fun a => Fin.ext ?_)
  match a with
  | ⟨0, _⟩ => show win0_1.index t (0 : Fin 2) * 2048 + 1 * (y 0).val = (y 0).val; omega
  | ⟨1, _⟩ => show win0_1.index t (1 : Fin 2) * 1024 + 1 * (y 1).val = (y 1).val; omega

/-- The output weights' block is the whole array. -/
theorem blk2_eq (c : Dev nD) (t : Fin cfg0.N) : (iblk m c 2 t : Vec Ideal S1024x1024 .bf16) = V m c main_v3 := by
  obtain ⟨-, -, -, -, e0, e1, -⟩ := idx_facts t
  funext y
  show V m c main_v3 (((cfg0.win 2).blk t).view.emb y) = V m c main_v3 y
  refine congrArg (V m c main_v3) (funext fun a => Fin.ext ?_)
  match a with
  | ⟨0, _⟩ => show win0_2.index t (0 : Fin 2) * 1024 + 1 * (y 0).val = (y 0).val; omega
  | ⟨1, _⟩ => show win0_2.index t (1 : Fin 2) * 1024 + 1 * (y 1).val = (y 1).val; omega

/-- The two affine rows' blocks are the whole arrays. -/
theorem blk3_eq (c : Dev nD) (t : Fin cfg0.N) : (iblk m c 3 t : Vec Ideal S1x1024 .f32) = V m c main_v4 := by
  obtain ⟨-, -, -, -, -, -, e0, e1, -⟩ := idx_facts t
  funext y
  show V m c main_v4 (((cfg0.win 3).blk t).view.emb y) = V m c main_v4 y
  refine congrArg (V m c main_v4) (funext fun a => Fin.ext ?_)
  match a with
  | ⟨0, _⟩ => show win0_3.index t (0 : Fin 2) * 1 + 1 * (y 0).val = (y 0).val; omega
  | ⟨1, _⟩ => show win0_3.index t (1 : Fin 2) * 1024 + 1 * (y 1).val = (y 1).val; omega
theorem blk4_eq (c : Dev nD) (t : Fin cfg0.N) : (iblk m c 4 t : Vec Ideal S1x1024 .f32) = V m c main_v5 := by
  obtain ⟨-, -, -, -, -, -, -, -, e0, e1, -⟩ := idx_facts t
  funext y
  show V m c main_v5 (((cfg0.win 4).blk t).view.emb y) = V m c main_v5 y
  refine congrArg (V m c main_v5) (funext fun a => Fin.ext ?_)
  match a with
  | ⟨0, _⟩ => show win0_4.index t (0 : Fin 2) * 1 + 1 * (y 0).val = (y 0).val; omega
  | ⟨1, _⟩ => show win0_4.index t (1 : Fin 2) * 1024 + 1 * (y 1).val = (y 1).val; omega

/-! ## The region's result array -/

/-- What the region leaves in its result array: entry `(r, q)` is the row function on row `r` of the first operand. -/
def regionOut (c : Dev nD) : S16384x1024.Idx → EReal := fun j =>
  rowOut (fun k : Fin 1024 => (V m c main_v0 : S16384x1024.Idx → EReal) (ix2 (j 0) k))
    (wLo (V m c main_v2)) (wHi (V m c main_v2)) (wSq (V m c main_v3)) (oneRow (V m c main_v4)) (oneRow (V m c main_v5)) (j 1)

theorem regionOut_at (c : Dev nD) (r : Fin 16384) (q : Fin 1024) :
    regionOut m c (ix2 r q) = rowOut (fun k : Fin 1024 => (V m c main_v0 : S16384x1024.Idx → EReal) (ix2 r k))
      (wLo (V m c main_v2)) (wHi (V m c main_v2)) (wSq (V m c main_v3)) (oneRow (V m c main_v4)) (oneRow (V m c main_v5)) q := rfl

/-- WHAT POINT `t` WRITES BACK is block `t` of `regionOut`. -/
theorem flushed_eq (c : Dev nD) (t : Fin cfg0.N) :
    (dats m 0 c).flushed 5 t = ((cfg0.win 5).blk t).view.read (Elt Ideal) (regionOut m c) := by
  show (cfg0.win 5).cut (grid0.coords t) ((dats m 0 c).after 5 t) = _
  rw [after0_5]
  unfold out0_5
  rw [View.canon_unit_zero hz]
  simp only [View.ld_unit_zero (S := S512x1024) hz, View.ld_unit_zero (S := S2048x1024) hz,
    View.ld_unit_zero (S := S1024x1024) hz, View.ld_unit_zero (S := S1x1024) hz]
  obtain ⟨-, -, -, -, -, -, -, -, -, -, e0, e1⟩ := idx_facts t
  have hN : cfg0.N = 32 := N_0
  have ht : t.val < 32 := hN ▸ t.isLt
  funext j
  obtain ⟨p, q, rfl⟩ : ∃ (p : Fin 512) (q : Fin 1024), j = ix2 p q := ⟨j 0, j 1, eq_ix2 j⟩
  have hp := p.isLt
  have hemb : ((cfg0.win 5).blk t).view.emb (ix2 p q) = (ix2 (⟨512 * t.val + p.val, by omega⟩ : Fin 16384) q : S16384x1024.Idx) :=
    funext fun a => Fin.ext (by
      match a with
      | ⟨0, _⟩ => show win0_5.index t (0 : Fin 2) * 512 + 1 * p.val = 512 * t.val + p.val; omega
      | ⟨1, _⟩ => show win0_5.index t (1 : Fin 2) * 1024 + 1 * q.val = q.val; omega)
  show k0_pay1 (iblk m c 0 t) (iblk m c 1 t) (iblk m c 2 t) (iblk m c 3 t) (iblk m c 4 t) (ix2 p q)
    = regionOut m c (((cfg0.win 5).blk t).view.emb (ix2 p q))
  rw [hemb, regionOut_at]
  refine (pay_at (iblk m c 0 t) (iblk m c 1 t) (iblk m c 2 t) (iblk m c 3 t) (iblk m c 4 t) p q).trans ?_
  rw [blk0_row m c t p ⟨512 * t.val + p.val, by omega⟩ rfl, blk1_eq, blk2_eq, blk3_eq, blk4_eq]

/-- An index of the result array is in point `t`'s block iff each coordinate is in the block's range on its axis. -/
theorem mem_blk (t : Fin cfg0.N) (i : S16384x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v6).slice (win0_5.rect t)).set ↔ _
  rw [View.set_slice_whole, Rect.mem_set_unit]
  exact Iff.rfl

/-- Every entry lies in the block of the point its row falls in. -/
theorem cover (i : S16384x1024.Idx) : ∃ t : Fin cfg0.N, (cfg0.win 5).flush t = true ∧ i ∈ ((cfg0.win 5).blk t).view.set := by
  have hN : cfg0.N = 32 := N_0
  have hi0 : (i 0).val < 16384 := (i 0).isLt
  have hi1 : (i 1).val < 1024 := (i 1).isLt
  let t : Fin cfg0.N := ⟨(i 0).val / 512, by rw [hN]; omega⟩
  obtain ⟨-, -, -, -, -, -, -, -, -, -, e0, e1⟩ := idx_facts t
  have ht : t.val = (i 0).val / 512 := rfl
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-- THE RESULT ARRAY after the region is `regionOut`. -/
theorem final (c : Dev nD) : (dats m 0 c).arrAt 5 cfg0.N = regionOut m c :=
  (dats m 0 c).arrAt_eq_of_cover 5 (regionOut m c) (fun t _ => flushed_eq m c t) (cover)

end Cert.KernelIdeal.Blocks

end
-- ==== Proof.KernelValue.lean ====
/-
  The kernel's program, whole: after the region the program unflattens the region's result array, so entry `(b, s, d)`
  of the program's result is entry `(b · 4096 + s, d)` of the region's, which is the row function on row
  `b · 4096 + s` of the flat input, that is on row `(b, s)` of the input, against the value, gate and output weights
  and the two affine vectors: `GatedNorm.result` of the arguments.
-/
import proofs.«168899_j62302795596568_2_alg».proof.Proof.Gen.KernelIdeal.Frame
import proofs.«168899_j62302795596568_2_alg».proof.Proof.KernelHost
import proofs.«168899_j62302795596568_2_alg».proof.Proof.KernelArray
import Idealize.ShloMosaic.Lib.StableHlo.Run

noncomputable section

namespace Cert.KernelIdeal.Whole

open Cert.KernelIdeal Cert.KernelIdeal.Gen Cert.KernelIdeal.Row Cert.GatedNorm
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The program's result after the run: the region's result array, unflattened. -/
theorem tail_v7 (c : Dev nD) :
    Pipeline.afterTail₀ cfgs (dats m) 0 (V0 m) [hostOps1] c main_v7
      = shapeCast S4x4096x1024 (Blocks.regionOut m c) shapeCasts_S16384x1024_S4x4096x1024 := by
  unfold Pipeline.afterTail₀
  show StableHlo.after hostOps1 _ (Proc.devRef .tc main_v7) = _
  after_results
  have h5 : Pipeline.withArrays (cfgs 0).spec c (V0 m c) (fun w => (dats m 0 c).arrAt w (cfgs 0).N) (Proc.devRef .tc main_v6)
      = Blocks.regionOut m c :=
    (Pipeline.withArrays_arr spec0 launch0.win.arr_inj c _ _ 5).trans (Blocks.final m c)
  rw [h5]
  rfl

/-- The unflattened region result is `GatedNorm.result` of the arguments. -/
theorem whole (c : Dev nD) :
    shapeCast S4x4096x1024 (Blocks.regionOut m c) shapeCasts_S16384x1024_S4x4096x1024
      = result (m ((c.tc : Thread nD τ).loc main_arg0)) (m ((c.tc : Thread nD τ).loc main_arg3)) (m ((c.tc : Thread nD τ).loc main_arg4))
          (m ((c.tc : Thread nD τ).loc main_arg6)) (m ((c.tc : Thread nD τ).loc main_arg7)) (m ((c.tc : Thread nD τ).loc main_arg8)) := by
  funext i
  obtain ⟨b, s, d, rfl⟩ : ∃ (b : Fin 4) (s : Fin 4096) (d : Fin 1024), i = ix3 b s d := ⟨i 0, i 1, i 2, eq_ix3 i⟩
  have hb := b.isLt
  have hs := s.isLt
  rw [HostSide.unflat_at _ b s d ⟨b.val * 4096 + s.val, by omega⟩ rfl, Blocks.regionOut_at,
    HostSide.row_v0 m c b s _ rfl, HostSide.lo_v2, HostSide.hi_v2, HostSide.sq_v3, HostSide.row_v4, HostSide.row_v5]
  rfl

/-- THE RUN, read: the program's result at `GatedNorm.result` of the arguments, the arguments unchanged. -/
theorem run : θ_run defs (onTc (τ := τ) (main (F := Ideal))) ⟨m, fun _ => 0, ρ⟩ fun r => ∀ c : Dev nD,
      r.2.mem ((c.tc : Thread nD τ).loc main_v7)
        = result (m ((c.tc : Thread nD τ).loc main_arg0)) (m ((c.tc : Thread nD τ).loc main_arg3)) (m ((c.tc : Thread nD τ).loc main_arg4))
            (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c =>
    ⟨((h c).2 main_v7 (Pipeline.mem_restRefs_of main_v7 (by decide) (by decide))).trans ((tail_v7 m c).trans (whole m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.Whole

end
-- ==== Proof.RefStages.lean ====
/-
  The reference program, stage by stage, at an entry `(b, s, d)` of its `[4, 4096, 1024]` arrays: each stage is the
  matching piece of the row function of `GatedNorm` on row `(b, s)` of the input. The two projections read the input
  row against a weight row; the gate is `g · (1 / (1 + exp (-g)))`, which on the extended reals is `g · logistic g`;
  the two row sums start from the word of `0.0`, which adds nothing.
-/
import proofs.«168899_j62302795596568_2_alg».proof.Proof.Gen.ReferenceIdeal.Read
import proofs.«168899_j62302795596568_2_alg».proof.Proof.GatedNorm
import Idealize.ShloMosaic.Lib.IdealHost

noncomputable section

namespace Cert.ReferenceIdeal.Stages

open Cert.ReferenceIdeal Cert.ReferenceIdeal.Read Cert.GatedNorm Idealize.ShloMosaic Idealize.ShloMosaic.ValueIdx

variable (x0 : (⟨S4x4096x1024, .f32⟩ : BufTy).Contents (Elt Ideal)) (x3 x4 x6 : (⟨S1024x1024, .f32⟩ : BufTy).Contents (Elt Ideal))
  (x7 x8 : (⟨S1024, .f32⟩ : BufTy).Contents (Elt Ideal))

/-! ## The index maps of the generated stage lemmas, at explicit coordinates -/

theorem lidx2 (b : Fin 4) (s : Fin 4096) (q k : Fin 1024) : lidx_main_v2 (ix3 b s q) k = ix3 b s k :=
  funext fun a => by match a with | ⟨0, _⟩ => rfl | ⟨1, _⟩ => rfl | ⟨2, _⟩ => rfl
theorem ridx2 (b : Fin 4) (s : Fin 4096) (q k : Fin 1024) : ridx_main_v2 (ix3 b s q) k = ix2 q k :=
  funext fun a => by match a with | ⟨0, _⟩ => rfl | ⟨1, _⟩ => rfl
theorem lidx3 (b : Fin 4) (s : Fin 4096) (q k : Fin 1024) : lidx_main_v3 (ix3 b s q) k = ix3 b s k :=
  funext fun a => by match a with | ⟨0, _⟩ => rfl | ⟨1, _⟩ => rfl | ⟨2, _⟩ => rfl
theorem ridx3 (b : Fin 4) (s : Fin 4096) (q k : Fin 1024) : ridx_main_v3 (ix3 b s q) k = ix2 q k :=
  funext fun a => by match a with | ⟨0, _⟩ => rfl | ⟨1, _⟩ => rfl
theorem lidx18 (b : Fin 4) (s : Fin 4096) (q k : Fin 1024) : lidx_main_v18 (ix3 b s q) k = ix3 b s k :=
  funext fun a => by match a with | ⟨0, _⟩ => rfl | ⟨1, _⟩ => rfl | ⟨2, _⟩ => rfl
theorem ridx18 (b : Fin 4) (s : Fin 4096) (q k : Fin 1024) : ridx_main_v18 (ix3 b s q) k = ix2 q k :=
  funext fun a => by match a with | ⟨0, _⟩ => rfl | ⟨1, _⟩ => rfl
theorem idx20 (b : Fin 4) (s : Fin 4096) (k : Fin 1024) : idx_main_v20 (ix2 b s) k = ix3 b s k :=
  funext fun a => by match a with | ⟨0, _⟩ => rfl | ⟨1, _⟩ => rfl | ⟨2, _⟩ => rfl
theorem idx27 (b : Fin 4) (s : Fin 4096) (k : Fin 1024) : idx_main_v27 (ix2 b s) k = ix3 b s k :=
  funext fun a => by match a with | ⟨0, _⟩ => rfl | ⟨1, _⟩ => rfl | ⟨2, _⟩ => rfl
theorem idx21 (b : Fin 4) (s : Fin 4096) (u : Fin 1) : idx_main_v21 (ix3 b s u) = ix2 b s :=
  funext fun a => by match a with | ⟨0, _⟩ => rfl | ⟨1, _⟩ => rfl
theorem idx28 (b : Fin 4) (s : Fin 4096) (u : Fin 1) : idx_main_v28 (ix3 b s u) = ix2 b s :=
  funext fun a => by match a with | ⟨0, _⟩ => rfl | ⟨1, _⟩ => rfl
theorem idx24 (b : Fin 4) (s : Fin 4096) (d : Fin 1024) : idx_main_v24 (ix3 b s d) = ix3 b s (0 : Fin 1) :=
  funext fun a => by match a with | ⟨0, _⟩ => rfl | ⟨1, _⟩ => rfl | ⟨2, _⟩ => rfl
theorem idx31 (b : Fin 4) (s : Fin 4096) (d : Fin 1024) : idx_main_v31 (ix3 b s d) = ix3 b s (0 : Fin 1) :=
  funext fun a => by match a with | ⟨0, _⟩ => rfl | ⟨1, _⟩ => rfl | ⟨2, _⟩ => rfl
theorem idx36 (b : Fin 4) (s : Fin 4096) (d : Fin 1024) : idx_main_v36 (ix3 b s d) = ix3 b s (0 : Fin 1) :=
  funext fun a => by match a with | ⟨0, _⟩ => rfl | ⟨1, _⟩ => rfl | ⟨2, _⟩ => rfl
theorem idx39 (b : Fin 4) (s : Fin 4096) (d : Fin 1024) : idx_main_v38 (idx_main_v39 (ix3 b s d)) = ix1 d :=
  funext fun a => by match a with | ⟨0, _⟩ => rfl
theorem idx42 (b : Fin 4) (s : Fin 4096) (d : Fin 1024) : idx_main_v41 (idx_main_v42 (ix3 b s d)) = ix1 d :=
  funext fun a => by match a with | ⟨0, _⟩ => rfl

/-! ## The projections and the gate -/

/-- The value projection at `(b, s, q)`: row `(b, s)` against row `q` of the value weights. -/
theorem v2_at (b : Fin 4) (s : Fin 4096) (q : Fin 1024) :
    val_main_v2 (F := Ideal) x0 x3 (ix3 b s q) = lin (rowOf x0 b s) (mat x3) q := by
  rw [val_main_v2_apply]
  exact Finset.sum_congr rfl fun k _ => by rw [lidx2, ridx2]; rfl

/-- The gate projection likewise. -/
theorem v3_at (b : Fin 4) (s : Fin 4096) (q : Fin 1024) :
    val_main_v3 (F := Ideal) x0 x4 (ix3 b s q) = lin (rowOf x0 b s) (mat x4) q := by
  rw [val_main_v3_apply]
  exact Finset.sum_congr rfl fun k _ => by rw [lidx3, ridx3]; rfl

/-- `g · (1 / (1 + exp (-g)))` is `g · logistic g`. -/
theorem v10_at (b : Fin 4) (s : Fin 4096) (q : Fin 1024) :
    val_main_v10 (F := Ideal) x0 x4 (ix3 b s q)
      = lin (rowOf x0 b s) (mat x4) q * Ideal.logistic (lin (rowOf x0 b s) (mat x4) q) := by
  rw [val_main_v10_apply, val_main_call1_v5_apply, val_main_call1_v4_apply, val_main_call1_cst_0_apply,
    val_main_call1_v3_apply, val_main_call1_v2_apply, val_main_call1_cst_apply, val_main_call1_v1_apply,
    val_main_call1_v0_apply, v3_at]
  simp only [Ideal.ofBits_def, Ideal.ofBits_one_f32]
  rfl

/-- The gated value at `(b, s, q)`. -/
theorem v17_at (b : Fin 4) (s : Fin 4096) (q : Fin 1024) :
    val_main_v17 (F := Ideal) x0 x3 x4 (ix3 b s q) = gated (rowOf x0 b s) (mat x3) (mat x4) q := by
  rw [val_main_v17_apply, v2_at, v10_at]
  rfl

/-- The output projection plus the input, at `(b, s, d)`. -/
theorem v19_at (b : Fin 4) (s : Fin 4096) (d : Fin 1024) :
    val_main_v19 (F := Ideal) x0 x3 x4 x6 (ix3 b s d) = pre (rowOf x0 b s) (mat x3) (mat x4) (mat x6) d := by
  rw [val_main_v19_apply, val_main_v18_apply]
  refine congrArg (· + x0 (ix3 b s d)) (Finset.sum_congr rfl fun k _ => ?_)
  rw [lidx18, ridx18, v17_at]
  rfl

/-! ## The normalisation -/

/-- The mean of row `(b, s)`. -/
theorem v23_at (b : Fin 4) (s : Fin 4096) :
    val_main_v23 (F := Ideal) x0 x3 x4 x6 (ix3 b s (0 : Fin 1)) = mean (pre (rowOf x0 b s) (mat x3) (mat x4) (mat x6)) := by
  rw [val_main_v23_apply, val_main_v22_apply, val_main_cst_3_apply, val_main_v21_apply, idx21, val_main_v20_apply,
    val_main_cst_2_apply]
  simp only [Ideal.ofBits_def, Ideal.ofBits_zero_f32, zero_add, idx20, v19_at]
  rfl

/-- The centred row, at `(b, s, d)` (the program subtracts the mean twice: both copies). -/
theorem v25_at (b : Fin 4) (s : Fin 4096) (d : Fin 1024) :
    val_main_v25 (F := Ideal) x0 x3 x4 x6 (ix3 b s d) = centered (pre (rowOf x0 b s) (mat x3) (mat x4) (mat x6)) d := by
  rw [val_main_v25_apply, val_main_v24_apply, idx24, v23_at, v19_at]
  rfl
theorem v32_at (b : Fin 4) (s : Fin 4096) (d : Fin 1024) :
    val_main_v32 (F := Ideal) x0 x3 x4 x6 (ix3 b s d) = centered (pre (rowOf x0 b s) (mat x3) (mat x4) (mat x6)) d := by
  rw [val_main_v32_apply, val_main_v31_apply, idx31, v23_at, v19_at]
  rfl

/-- The inverse standard deviation of row `(b, s)`. -/
theorem v35_at (b : Fin 4) (s : Fin 4096) :
    val_main_v35 (F := Ideal) x0 x3 x4 x6 (ix3 b s (0 : Fin 1)) = invStd (pre (rowOf x0 b s) (mat x3) (mat x4) (mat x6)) := by
  rw [val_main_v35_apply, val_main_v34_apply, val_main_v33_apply, val_main_cst_6_apply, val_main_v30_apply,
    val_main_v29_apply, val_main_cst_5_apply, val_main_v28_apply, idx28, val_main_v27_apply, val_main_cst_4_apply]
  simp only [Ideal.ofBits_def, Ideal.ofBits_zero_f32, zero_add, idx27, val_main_v26_apply, v25_at]
  rfl

/-- THE REFERENCE's result at `(b, s, d)` is the row function of row `(b, s)` at `d`. -/
theorem v43_at (b : Fin 4) (s : Fin 4096) (d : Fin 1024) :
    val_main_v43 (F := Ideal) x0 x3 x4 x6 x7 x8 (ix3 b s d)
      = rowOut (rowOf x0 b s) (mat x3) (mat x4) (mat x6) (vec x7) (vec x8) d := by
  rw [val_main_v43_apply, val_main_v42_apply, val_main_v41_apply, idx42, val_main_v40_apply, val_main_v39_apply,
    val_main_v38_apply, idx39, val_main_v37_apply, val_main_v36_apply, idx36, v35_at, v32_at]
  rfl

/-- The reference's result array is `GatedNorm.result` of its arguments. -/
theorem ref_eq : val_main_v43 (F := Ideal) x0 x3 x4 x6 x7 x8 = result x0 x3 x4 x6 x7 x8 := by
  funext i
  obtain ⟨b, s, d, rfl⟩ : ∃ (b : Fin 4) (s : Fin 4096) (d : Fin 1024), i = ix3 b s d := ⟨i 0, i 1, i 2, eq_ix3 i⟩
  rw [v43_at]
  rfl

end Cert.ReferenceIdeal.Stages

end
-- ==== Proof.lean ====
/-
  The kernel computes, for every row of a `[4, 4096, 1024]` input, a gated projection (the value projection times
  `g · logistic g` of the gate projection), an output projection with the input row added back, and a layer
  normalisation of the result under an affine map; the reference computes the same with one projection per weight
  array and the gate spelt `g · (1 / (1 + exp (-g)))`. On the extended reals both results are `GatedNorm.result` of
  the arguments: the kernel's through its blocks of 512 rows of the flattened input and the stacked value and gate
  weights (`KernelRow`, `KernelArray`, `KernelHost`, `KernelValue`), the reference's stage by stage (`RefStages`).
  The three extra projections the reference also computes do not enter its result. No law of arithmetic beyond the
  definition of `logistic` and `0 + x = x` joins the two sides, so the inputs' finiteness is never used.
-/
import proofs.«168899_j62302795596568_2_alg».proof.Defs
import proofs.«168899_j62302795596568_2_alg».proof.Proof.Gen.Kernel
import proofs.«168899_j62302795596568_2_alg».proof.Proof.Gen.Kernel.Skeleton
import proofs.«168899_j62302795596568_2_alg».proof.Proof.Gen.Kernel.Launch
import proofs.«168899_j62302795596568_2_alg».proof.Proof.Gen.Kernel.Points
import proofs.«168899_j62302795596568_2_alg».proof.Proof.Gen.Kernel.Frame
import proofs.«168899_j62302795596568_2_alg».proof.Proof.Gen.KernelIdeal
import proofs.«168899_j62302795596568_2_alg».proof.Proof.Gen.KernelIdeal.Skeleton
import proofs.«168899_j62302795596568_2_alg».proof.Proof.Gen.KernelIdeal.Launch
import proofs.«168899_j62302795596568_2_alg».proof.Proof.Gen.KernelIdeal.Points
import proofs.«168899_j62302795596568_2_alg».proof.Proof.Gen.KernelIdeal.Frame
import proofs.«168899_j62302795596568_2_alg».proof.Proof.Gen.ReferenceIdeal
import proofs.«168899_j62302795596568_2_alg».proof.Proof.Gen.ReferenceIdeal.Run
import proofs.«168899_j62302795596568_2_alg».proof.Proof.Gen.ReferenceIdeal.Read
import proofs.«168899_j62302795596568_2_alg».proof.Proof.Gen.Pre_finite_inputs
import proofs.«168899_j62302795596568_2_alg».proof.Proof.KernelValue
import proofs.«168899_j62302795596568_2_alg».proof.Proof.RefStages
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with `GatedNorm.result` of arguments that agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, Cert.ReferenceIdeal.Stages.ref_eq,
    (hagree c).1, (hagree c).2.2.2.1, (hagree c).2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
